-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_v3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32x128 : Shape := ⟨3, ![64, 32, 128]⟩
abbrev S128x180x128 : Shape := ⟨3, ![128, 180, 128]⟩
abbrev S_ : Shape := ⟨0, ![]⟩

class Facts : Prop where
  bcast_S_S64x32x128 : S_.BroadcastsInDim S64x32x128 (![] : Fin 0 → Fin S64x32x128.rank)
  reducesTo_S64x32x128_S_d0_1_2 : S64x32x128.ReducesTo [0, 1, 2] S_
  h_S_ : 0 < S_.numel
  bcast_S_S128x180x128 : S_.BroadcastsInDim S128x180x128 (![] : Fin 0 → Fin S128x180x128.rank)
  reducesTo_S128x180x128_S_d0_1_2 : S128x180x128.ReducesTo [0, 1, 2] S_

variable [Facts]

def fn {F : FTy → Type} [FloatOps F] (main_arg0 : FVec F S64x32x128 .f32) (main_arg1 : FVec F S128x180x128 .f32) : IVec S_ 1 :=
  let main_v0 : FVec F S64x32x128 .f32 := Host.absf main_arg0
  let main_cst : FVec F S_ .f32 := constant S_ .f32 0x7F800000#32
  let main_v1 : FVec F S64x32x128 .f32 := broadcastInDim S64x32x128 ![] bcast_S_S64x32x128 main_cst
  let main_v2 : IVec S64x32x128 1 := cmpf .olt main_v0 main_v1
  let main_c : IVec S_ 1 := constantI S_ 1 1#1
  let main_v3 : IVec S_ 1 := (fun x v => Host.reduce IntOp.andi x v reducesTo_S64x32x128_S_d0_1_2 h_S_) main_v2 main_c
  let main_v4 : FVec F S128x180x128 .f32 := Host.absf main_arg1
  let main_cst_0 : FVec F S_ .f32 := constant S_ .f32 0x7F800000#32
  let main_v5 : FVec F S128x180x128 .f32 := broadcastInDim S128x180x128 ![] bcast_S_S128x180x128 main_cst_0
  let main_v6 : IVec S128x180x128 1 := cmpf .olt main_v4 main_v5
  let main_c_1 : IVec S_ 1 := constantI S_ 1 1#1
  let main_v7 : IVec S_ 1 := (fun x v => Host.reduce IntOp.andi x v reducesTo_S128x180x128_S_d0_1_2 h_S_) main_v6 main_c_1
  let main_v8 : IVec S_ 1 := andi main_v3 main_v7
  main_v8
-- ==== Kernel.lean ====
abbrev S64x32x128 : Shape := ⟨3, ![64, 32, 128]⟩
abbrev S128x180x128 : Shape := ⟨3, ![128, 180, 128]⟩
abbrev S64x128x32x180 : Shape := ⟨4, ![64, 128, 32, 180]⟩
abbrev S64x128x32 : Shape := ⟨3, ![64, 128, 32]⟩
abbrev S8x32x128 : Shape := ⟨3, ![8, 32, 128]⟩
abbrev S16x180x128 : Shape := ⟨3, ![16, 180, 128]⟩
abbrev S8x16x32x180 : Shape := ⟨4, ![8, 16, 32, 180]⟩
abbrev S8x16x32 : Shape := ⟨3, ![8, 16, 32]⟩
abbrev S256x128 : Shape := ⟨2, ![256, 128]⟩
abbrev S1x180x128 : Shape := ⟨3, ![1, 180, 128]⟩
abbrev S180x128 : Shape := ⟨2, ![180, 128]⟩
abbrev S256x180 : Shape := ⟨2, ![256, 180]⟩
abbrev S8x32x180 : Shape := ⟨3, ![8, 32, 180]⟩
abbrev S8x32 : Shape := ⟨2, ![8, 32]⟩
abbrev S8x1x32x180 : Shape := ⟨4, ![8, 1, 32, 180]⟩
abbrev S8x1x32 : Shape := ⟨3, ![8, 1, 32]⟩
abbrev S_ : Shape := ⟨0, ![]⟩
abbrev S64x128 : Shape := ⟨2, ![64, 128]⟩

abbrev nBuf : Space → Nat
  | .hbm => 6
  | .vmem => 8
  | .smem => 0
  | _ => 0

abbrev bufTy : (tb : Table) → Fin (tcTables nBuf tb) → BufTy
  | .hbm, ⟨0, _⟩ => ⟨S64x32x128, .f32⟩
  | .hbm, ⟨1, _⟩ => ⟨S128x180x128, .f32⟩
  | .hbm, ⟨2, _⟩ => ⟨S64x128x32x180, .f32⟩
  | .hbm, ⟨3, _⟩ => ⟨S64x128x32, .f32⟩
  | .hbm, ⟨4, _⟩ => ⟨S_, .f32⟩
  | .hbm, ⟨5, _⟩ => ⟨S64x128, .f32⟩
  | .local _ .vmem, ⟨0, _⟩ => ⟨S8x32x128, .f32⟩
  | .local _ .vmem, ⟨1, _⟩ => ⟨S8x32x128, .f32⟩
  | .local _ .vmem, ⟨2, _⟩ => ⟨S16x180x128, .f32⟩
  | .local _ .vmem, ⟨3, _⟩ => ⟨S16x180x128, .f32⟩
  | .local _ .vmem, ⟨4, _⟩ => ⟨S8x16x32x180, .f32⟩
  | .local _ .vmem, ⟨5, _⟩ => ⟨S8x16x32x180, .f32⟩
  | .local _ .vmem, ⟨6, _⟩ => ⟨S8x16x32, .f32⟩
  | .local _ .vmem, ⟨7, _⟩ => ⟨S8x16x32, .f32⟩
  | _, _ => ⟨S64x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32 : BitVec 32 := 0#32
  let c16_i32 : BitVec 32 := 16#32
  let v3 : BitVec 32 := Scalar.addi c0_i32 c16_i32
  let c1_i32 : BitVec 32 := 1#32
  ⟨c0_i32, v3, c1_i32⟩
def k0_off1 (k0_t1 : Fin k0_t1_loop.trips) : Fin 3 → Nat :=
  let c0_i32 : BitVec 32 := 0#32
  let c1_i32 : BitVec 32 := 1#32
  let arg6 : BitVec 32 := Scf.iv c0_i32 c1_i32 k0_t1
  let v4 : Index := Scalar.indexCast arg6
  let c0_3 : Index := 0#32
  let c0_4 : Index := 0#32
  ![v4.toNat, 0, 0]
def k0_off2 (k0_t1 : Fin k0_t1_loop.trips) : Fin 4 → Nat :=
  let c0_6 : Index := 0#32
  let c0_i32 : BitVec 32 := 0#32
  let c1_i32 : BitVec 32 := 1#32
  let arg6 : BitVec 32 := Scf.iv c0_i32 c1_i32 k0_t1
  let v12 : Index := Scalar.indexCast arg6
  let c0_7 : Index := 0#32
  let c0_8 : Index := 0#32
  ![0, v12.toNat, 0, 0]
def k0_off3 (k0_t1 : Fin k0_t1_loop.trips) : Fin 3 → Nat :=
  let c0_9 : Index := 0#32
  let c0_i32 : BitVec 32 := 0#32
  let c1_i32 : BitVec 32 := 1#32
  let arg6 : BitVec 32 := Scf.iv c0_i32 c1_i32 k0_t1
  let v15 : Index := Scalar.indexCast arg6
  let c0_10 : Index := 0#32
  ![0, v15.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x180x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x16x32x180 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x16x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S8x32x128_S8x32x128_0_0_0 : ∀ a, (![0, 0, 0] : Fin 3 → Nat) a + S8x32x128.size a ≤ S8x32x128.size a
  h_S8x32x128 : 0 < S8x32x128.numel
  bitsLt_bf16_f32 : FTy.bits .bf16 < FTy.bits .f32
  shapeCasts_S8x32x128_S256x128 : S8x32x128.ShapeCasts S256x128
  h_S1x180x128 : 0 < S1x180x128.numel
  shapeCasts_S1x180x128_S180x128 : S1x180x128.ShapeCasts S180x128
  shapeCasts_S256x180_S8x32x180 : S256x180.ShapeCasts S8x32x180
  reduces_S8x32x180_S8x32 : S8x32x180.Reduces [2] S8x32
  shapeCasts_S8x32x180_S8x1x32x180 : S8x32x180.ShapeCasts S8x1x32x180
  h_S8x1x32x180 : 0 < S8x1x32x180.numel
  shapeCasts_S8x32_S8x1x32 : S8x32.ShapeCasts S8x1x32
  h_S8x1x32 : 0 < S8x1x32.numel
  reducesTo_S64x128x32_S64x128_d2 : S64x128x32.ReducesTo [2] S64x128
  h_S_ : 0 < S_.numel
  dot_S256x128_S180x128_S256x180_1_1_0_0_n_n_wf : DotDims.WF S256x128 S180x128 S256x180 [1] [1] [0] [0] [] []
  hrank0 : 0 < grid0.rank
  k0_t1_ok : k0_t1_loop.OK
  k0_off1_inb : ∀ k0_t1 : Fin k0_t1_loop.trips, ∀ a, (k0_off1 k0_t1) a + S1x180x128.size a ≤ S16x180x128.size a
  k0_off2_inb : ∀ k0_t1 : Fin k0_t1_loop.trips, ∀ a, (k0_off2 k0_t1) a + S8x1x32x180.size a ≤ S8x16x32x180.size a
  k0_off3_inb : ∀ k0_t1 : Fin k0_t1_loop.trips, ∀ a, (k0_off3 k0_t1) a + S8x1x32.size a ≤ S8x16x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x128.size a ≤ S64x32x128.size a
  hwx0_0 : ∀ i : grid0.Coords, EltTy.bits .f32 = 32 ∨ (Rect.block (s := S64x32x128) S8x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x180x128.size a ≤ S128x180x128.size a
  hwx0_1 : ∀ i : grid0.Coords, EltTy.bits .f32 = 32 ∨ (Rect.block (s := S128x180x128) S16x180x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x16x32x180.size a ≤ S64x128x32x180.size a
  hwx0_2 : ∀ i : grid0.Coords, EltTy.bits .f32 = 32 ∨ (Rect.block (s := S64x128x32x180) S8x16x32x180.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x16x32.size a ≤ S64x128x32.size a
  hwx0_3 : ∀ i : grid0.Coords, EltTy.bits .f32 = 32 ∨ (Rect.block (s := S64x128x32) S8x16x32.size (cc0_transform_3 i) (hinb0_3 i)).WholeWords (EltTy.packing .f32)

variable [Facts₀]

def dot_S256x128_S180x128_S256x180_1_1_0_0_n_n : DotDims S256x128 S180x128 S256x180 where
  lhsContracting := [1]
  rhsContracting := [1]
  lhsNonContracting := [0]
  rhsNonContracting := [0]
  lhsBatch := []
  rhsBatch := []
  wf := dot_S256x128_S180x128_S256x180_1_1_0_0_n_n_wf

abbrev win0_0 : Pipeline.Window sig grid0 :=
  Pipeline.Window.ofSpec (Memref.whole main_arg0) S8x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x180x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x16x32x180.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x16x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x32x128 : Shape := ⟨3, ![64, 32, 128]⟩
abbrev S128x180x128 : Shape := ⟨3, ![128, 180, 128]⟩
abbrev S128x180x64x32 : Shape := ⟨4, ![128, 180, 64, 32]⟩
abbrev S64x128x32x180 : Shape := ⟨4, ![64, 128, 32, 180]⟩
abbrev S_ : Shape := ⟨0, ![]⟩
abbrev S64x128x32 : Shape := ⟨3, ![64, 128, 32]⟩
abbrev S64x128 : Shape := ⟨2, ![64, 128]⟩

abbrev nBuf : Space → Nat
  | .hbm => 8
  | .vmem => 0
  | .smem => 0
  | _ => 0

abbrev bufTy : (tb : Table) → Fin (tcTables nBuf tb) → BufTy
  | .hbm, ⟨0, _⟩ => ⟨S64x32x128, .f32⟩
  | .hbm, ⟨1, _⟩ => ⟨S128x180x128, .f32⟩
  | .hbm, ⟨2, _⟩ => ⟨S128x180x64x32, .f32⟩
  | .hbm, ⟨3, _⟩ => ⟨S64x128x32x180, .f32⟩
  | .hbm, ⟨4, _⟩ => ⟨S_, .f32⟩
  | .hbm, ⟨5, _⟩ => ⟨S64x128x32, .f32⟩
  | .hbm, ⟨6, _⟩ => ⟨S_, .f32⟩
  | .hbm, ⟨7, _⟩ => ⟨S64x128, .f32⟩
  | _, _ => ⟨S64x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  transposes_S128x180x64x32_S64x128x32x180_2_0_3_1 : S128x180x64x32.Transposes [2, 0, 3, 1] S64x128x32x180
  reducesTo_S64x128x32x180_S64x128x32_d3 : S64x128x32x180.ReducesTo [3] S64x128x32
  h_S_ : 0 < S_.numel
  reducesTo_S64x128x32_S64x128_d2 : S64x128x32.ReducesTo [2] S64x128
  dot_S128x180x128_S64x32x128_S128x180x64x32_2_2_01_01_n_n_wf : DotDims.WF S128x180x128 S64x32x128 S128x180x64x32 [2] [2] [0, 1] [0, 1] [] []

variable [Facts₀]

def dot_S128x180x128_S64x32x128_S128x180x64x32_2_2_01_01_n_n : DotDims S128x180x128 S64x32x128 S128x180x64x32 where
  lhsContracting := [2]
  rhsContracting := [2]
  lhsNonContracting := [0, 1]
  rhsNonContracting := [0, 1]
  lhsBatch := []
  rhsBatch := []
  wf := dot_S128x180x128_S64x32x128_S128x180x64x32_2_2_01_01_n_n_wf

class Facts : Prop extends Facts₀ where

variable [Facts]
-- ==== Proof.Spec.lean ====
/-
  The specification: what both programs compute, index by index, over the extended reals.
  For query a, passage b, query token q and document token d the interaction is the inner product
  over the embedding axis, tr a b q d = Σ_v x a q v * y b d v; the score of a query token is the maximum
  of its interactions over the document tokens, taken from -∞. (The relevance, the sum of those maxima
  over the query tokens, is the same host operation in both programs and is never opened.)
-/
import Idealize.ShloMosaic.PureOps.Ideal
import Idealize.ShloMosaic.Lib.ValueIdx

noncomputable section

namespace Cert.Spec

open Idealize.ShloMosaic Idealize.ShloMosaic.ValueIdx

/-- Queries [64, 32, 128], passages [128, 180, 128], interactions [64, 128, 32, 180], scores [64, 128, 32]. -/
abbrev SQ : Shape := ⟨3, ![64, 32, 128]⟩
abbrev SP : Shape := ⟨3, ![128, 180, 128]⟩
abbrev STR : Shape := ⟨4, ![64, 128, 32, 180]⟩
abbrev SQM : Shape := ⟨3, ![64, 128, 32]⟩

/-- The value both programs start their maximum from: the f32 pattern of -∞, read at the extended reals. -/
abbrev negInf : EReal := FloatOps.ofBits (F := Ideal) .f32 0xFF800000#32

/-- The interaction of query token (a, q) with document token (b, d): their inner product over the embedding axis. -/
def tr (x : SQ.Idx → EReal) (y : SP.Idx → EReal) : STR.Idx → EReal :=
  fun j => ∑ v : Fin 128, x (ix3 (j 0) (j 2) v) * y (ix3 (j 1) (j 3) v)

/-- The score of query token (a, q) against passage b: the maximum of its interactions over the 180 document tokens. -/
def qm (x : SQ.Idx → EReal) (y : SP.Idx → EReal) : SQM.Idx → EReal :=
  fun j => (Finset.univ : Finset (Fin 180)).fold max negInf (fun d => tr x y (ix4 (j 0) (j 1) (j 2) d))

end Cert.Spec

end
-- ==== Proof.RefValue.lean ====
/-
  The reference computes the specification. Its contraction pairs passage (b, d) with query (a, q) and lays
  the result out as [b, d, a, q]; the transpose brings it to [a, b, q, d], so at (a, b, q, d) it is
  Σ_v y b d v * x a q v, the interaction with the two factors exchanged. Its maximum over the last axis,
  started from -∞, is the fold of max over the 180 document tokens, in any order.
-/
import proofs.«131539_j27092653703271_2_alg».proof.Proof.Gen.ReferenceIdeal.Read
import proofs.«131539_j27092653703271_2_alg».proof.Proof.Spec

noncomputable section

namespace Cert.RefValue

open Cert.ReferenceIdeal Cert.ReferenceIdeal.Gen Cert.ReferenceIdeal.Read Idealize.ShloMosaic Idealize.ShloMosaic.ValueIdx Cert.Spec

/-- The transposed contraction is the interaction tensor. -/
theorem v1_eq (x0 : (⟨S64x32x128, .f32⟩ : BufTy).Contents (Elt Ideal)) (x1 : (⟨S128x180x128, .f32⟩ : BufTy).Contents (Elt Ideal)) :
    val_main_v1 (F := Ideal) x0 x1 = tr x0 x1 := by
  funext j
  rw [val_main_v1_apply, val_main_v0_apply]
  refine Finset.sum_congr rfl fun k _ => ?_
  have e0 : ridx_main_v0 (idx_main_v1 j) k = ix3 (j 0) (j 2) k :=
    funext fun a => Fin.ext (by match a with | ⟨0, _⟩ => rfl | ⟨1, _⟩ => rfl | ⟨2, _⟩ => rfl)
  have e1 : lidx_main_v0 (idx_main_v1 j) k = ix3 (j 1) (j 3) k :=
    funext fun a => Fin.ext (by match a with | ⟨0, _⟩ => rfl | ⟨1, _⟩ => rfl | ⟨2, _⟩ => rfl)
  rw [e0, e1]
  exact mul_comm _ _

/-- The reference's maximum over the document axis is the score. -/
theorem v2_eq (x0 : (⟨S64x32x128, .f32⟩ : BufTy).Contents (Elt Ideal)) (x1 : (⟨S128x180x128, .f32⟩ : BufTy).Contents (Elt Ideal)) :
    val_main_v2 (F := Ideal) x0 x1 = qm x0 x1 := by
  have h : S64x128x32x180.Reduces [3] S64x128x32 := by decide
  funext j
  unfold val_main_v2
  rw [Host.reduce_eq_fold_single FloatOps.maximumf _ _ reducesTo_S64x128x32x180_S64x128x32_d3 h h_S_ j, v1_eq]
  have hl : ∀ d : Fin 180, h.lift j d = ix4 (j 0) (j 1) (j 2) d := fun d =>
    funext fun a => Fin.ext (by match a with | ⟨0, _⟩ => rfl | ⟨1, _⟩ => rfl | ⟨2, _⟩ => rfl | ⟨3, _⟩ => rfl)
  exact Finset.fold_congr fun d _ => congrArg (tr x0 x1) (hl d)

/-- The reference's relevance is the host's sum over the query tokens of the score. -/
theorem v3_eq (x0 : (⟨S64x32x128, .f32⟩ : BufTy).Contents (Elt Ideal)) (x1 : (⟨S128x180x128, .f32⟩ : BufTy).Contents (Elt Ideal)) :
    val_main_v3 (F := Ideal) x0 x1
      = Host.reduceAdd (F := Ideal) (qm x0 x1) (constant S_ .f32 0x00000000#32) reducesTo_S64x128x32_S64x128_d2 h_S_ := by
  unfold val_main_v3
  rw [v2_eq]
  rfl

end Cert.RefValue

end
-- ==== Proof.Pieces.lean ====
/-
  What the body leaves in its two output blocks, as functions of the block index.
  The body's loop visits the 16 passages of the passage block in turn; trip k loads passage k, and stores
  its interactions with the 8 x 32 query tokens into column k of the interaction block and their maxima into
  column k of the score block. So every store, of every trip, is the restriction to its rectangle of ONE function
  of the block index — at (a, b, q, d): the product of the query block with passage b, at (a, q, d); at (a, b, q):
  its maximum over d — and, the stores covering the blocks, the blocks end holding those functions.
-/
import proofs.«131539_j27092653703271_2_alg».proof.Proof.Gen.KernelIdeal.Frame
import Idealize.ShloMosaic.Lib.ValueIdx
import Idealize.ShloMosaic.Lib.Pipeline.Value

set_option maxRecDepth 16384

noncomputable section

namespace Cert.KernelValue

open Cert.KernelIdeal Cert.KernelIdeal.Gen Idealize.ShloMosaic Idealize.ShloMosaic.TcCoe Idealize.ShloMosaic.ValueIdx
open Idealize.SL.Sem

variable {F : FTy → Type} [FloatOps F]

/-- Passage b of a block of 16 passages, as the [1, 180, 128] vector the body loads. -/
def row (x1 : Vec F S16x180x128 .f32) (b : Fin 16) : Vec F S1x180x128 .f32 := fun z => x1 (ix3 b (z 1) (z 2))

/-- The interaction block: at (a, b, q, d) the body's product of the query block with passage b, at (a, q, d). -/
def blk2 (x0 : Vec F S8x32x128 .f32) (x1 : Vec F S16x180x128 .f32) : Vec F S8x16x32x180 .f32 :=
  fun y => k0_pay2 x0 (row x1 (y 1)) (ix4 (y 0) (0 : Fin 1) (y 2) (y 3))

/-- The score block: at (a, b, q) the maximum over d of that product. -/
def blk3 (x0 : Vec F S8x32x128 .f32) (x1 : Vec F S16x180x128 .f32) : Vec F S8x16x32 .f32 :=
  fun y => k0_pay3 x0 (row x1 (y 1)) (ix3 (y 0) (0 : Fin 1) (y 2))

theorem zero3 : (![0, 0, 0] : Fin 3 → Nat) = fun _ => 0 := funext fun a => by fin_cases a <;> rfl

/-- Trip k loads passage k of the passage block. -/
theorem ld_row (x1 : Vec F S16x180x128 .f32) (k : Fin k0_t1_loop.trips) (hk : k.val < 16)
    (inb : ∀ a, (k0_off1 k) a + S1x180x128.size a ≤ S16x180x128.size a) :
    View.ld x1 (Rect.unit (s := S16x180x128) (k0_off1 k) S1x180x128.size inb) = row x1 ⟨k.val, hk⟩ := by
  funext z
  have e0 : (k0_off1 k) 0 = k.val := congrFun (k0_off1_eq k) 0
  have e1 : (k0_off1 k) 1 = 0 := congrFun (k0_off1_eq k) 1
  have e2 : (k0_off1 k) 2 = 0 := congrFun (k0_off1_eq k) 2
  have hz0 : (z 0).val < 1 := (z 0).isLt
  show x1 ((Rect.unit (s := S16x180x128) (k0_off1 k) S1x180x128.size inb).idx z) = x1 (ix3 ⟨k.val, hk⟩ (z 1) (z 2))
  refine congrArg x1 (funext fun a => Fin.ext ?_)
  match a with
  | ⟨0, _⟩ => show (k0_off1 k) 0 + 1 * (z 0).val = k.val; omega
  | ⟨1, _⟩ => show (k0_off1 k) 1 + 1 * (z 1).val = (z 1).val; omega
  | ⟨2, _⟩ => show (k0_off1 k) 2 + 1 * (z 2).val = (z 2).val; omega

/-- A store of the product with passage k, read at a local index x, is the interaction block at any block index with
    the same coordinates and passage k. -/
theorem blk2_of_coords (x0 : Vec F S8x32x128 .f32) (x1 : Vec F S16x180x128 .f32) (k : Fin 16)
    (r : Vec F S1x180x128 .f32) (hr : r = row x1 k) (x : S8x1x32x180.Idx)
    (y : S8x16x32x180.Idx) (h0 : (y 0).val = (x 0).val) (h1 : (y 1).val = k.val) (h2 : (y 2).val = (x 2).val)
    (h3 : (y 3).val = (x 3).val) : k0_pay2 x0 r x = blk2 x0 x1 y := by
  subst hr
  unfold blk2
  have hk : y 1 = k := Fin.ext h1
  have hx1 : (x 1).val < 1 := (x 1).isLt
  have hx : ix4 (y 0) (0 : Fin 1) (y 2) (y 3) = x := funext fun a => Fin.ext (by
    match a with
    | ⟨0, _⟩ => exact h0
    | ⟨1, _⟩ => show (0 : ℕ) = (x 1).val; omega
    | ⟨2, _⟩ => exact h2
    | ⟨3, _⟩ => exact h3)
  exact (congrArg₂ (fun b z => k0_pay2 x0 (row x1 b) z) hk hx).symm

/-- The same for the score block. -/
theorem blk3_of_coords (x0 : Vec F S8x32x128 .f32) (x1 : Vec F S16x180x128 .f32) (k : Fin 16)
    (r : Vec F S1x180x128 .f32) (hr : r = row x1 k) (x : S8x1x32.Idx)
    (y : S8x16x32.Idx) (h0 : (y 0).val = (x 0).val) (h1 : (y 1).val = k.val) (h2 : (y 2).val = (x 2).val) :
    k0_pay3 x0 r x = blk3 x0 x1 y := by
  subst hr
  unfold blk3
  have hk : y 1 = k := Fin.ext h1
  have hx1 : (x 1).val < 1 := (x 1).isLt
  have hx : ix3 (y 0) (0 : Fin 1) (y 2) = x := funext fun a => Fin.ext (by
    match a with
    | ⟨0, _⟩ => exact h0
    | ⟨1, _⟩ => show (0 : ℕ) = (x 1).val; omega
    | ⟨2, _⟩ => exact h2)
  exact (congrArg₂ (fun b z => k0_pay3 x0 (row x1 b) z) hk hx).symm

variable (𝒱 : Variants) (c : Dev nD) (bd : Option 𝒱.V) (i : grid0.Coords) (arg2 : Memref sig .tc .vmem S8x32x128 .f32) (harg2 : arg2.IsWhole) (arg3 : Memref sig .tc .vmem S16x180x128 .f32) (harg3 : arg3.IsWhole) (arg4 : Memref sig .tc .vmem S8x16x32x180 .f32) (harg4 : arg4.IsWhole) (arg5 : Memref sig .tc .vmem S8x16x32 .f32) (harg5 : arg5.IsWhole)

/-- The one store trip k makes into the interaction block is the restriction of `blk2` to its rectangle. -/
theorem trip_pieces2 (x0 : Vec F S8x32x128 .f32) (x1 : Vec F S16x180x128 .f32) (k : Fin k0_t1_loop.trips) :
    ∀ p ∈ (trip_k0_t1 (F := F) 𝒱 c bd i arg2 harg2 arg3 harg3 arg4 harg4 arg5 harg5 x0 (harg3.unread x1) k).1,
      ∀ x : p.1.shape.Idx, p.2 x = blk2 x0 x1 (p.1.emb x) := by
  have hk : k.val < 16 := Nat.lt_of_lt_of_le k.isLt k0_t1_abs.2.1
  have e0 : (k0_off2 k) 0 = 0 := congrFun (k0_off2_eq k) 0
  have e1 : (k0_off2 k) 1 = k.val := congrFun (k0_off2_eq k) 1
  have e2 : (k0_off2 k) 2 = 0 := congrFun (k0_off2_eq k) 2
  have e3 : (k0_off2 k) 3 = 0 := congrFun (k0_off2_eq k) 3
  unfold trip_k0_t1
  dsimp only
  refine List.forall_mem_singleton.mpr ?_
  dsimp only
  intro x
  have hx1 : (x 1).val < 1 := (x 1).isLt
  rw [View.readAt_eq_ld, harg3.read_unread]
  refine blk2_of_coords x0 x1 ⟨k.val, hk⟩ _ (ld_row x1 k hk _) x _ ?_ ?_ ?_ ?_
  · show (k0_off2 k) 0 + 1 * (x 0).val = (x 0).val; omega
  · show (k0_off2 k) 1 + 1 * (x 1).val = k.val; omega
  · show (k0_off2 k) 2 + 1 * (x 2).val = (x 2).val; omega
  · show (k0_off2 k) 3 + 1 * (x 3).val = (x 3).val; omega

/-- The one store trip k makes into the score block is the restriction of `blk3` to its rectangle. -/
theorem trip_pieces3 (x0 : Vec F S8x32x128 .f32) (x1 : Vec F S16x180x128 .f32) (k : Fin k0_t1_loop.trips) :
    ∀ p ∈ (trip_k0_t1 (F := F) 𝒱 c bd i arg2 harg2 arg3 harg3 arg4 harg4 arg5 harg5 x0 (harg3.unread x1) k).2.1,
      ∀ x : p.1.shape.Idx, p.2 x = blk3 x0 x1 (p.1.emb x) := by
  have hk : k.val < 16 := Nat.lt_of_lt_of_le k.isLt k0_t1_abs.2.1
  have e0 : (k0_off3 k) 0 = 0 := congrFun (k0_off3_eq k) 0
  have e1 : (k0_off3 k) 1 = k.val := congrFun (k0_off3_eq k) 1
  have e2 : (k0_off3 k) 2 = 0 := congrFun (k0_off3_eq k) 2
  unfold trip_k0_t1
  dsimp only
  refine List.forall_mem_singleton.mpr ?_
  dsimp only
  intro x
  have hx1 : (x 1).val < 1 := (x 1).isLt
  rw [View.readAt_eq_ld, harg3.read_unread]
  refine blk3_of_coords x0 x1 ⟨k.val, hk⟩ _ (ld_row x1 k hk _) x _ ?_ ?_ ?_
  · show (k0_off3 k) 0 + 1 * (x 0).val = (x 0).val; omega
  · show (k0_off3 k) 1 + 1 * (x 1).val = k.val; omega
  · show (k0_off3 k) 2 + 1 * (x 2).val = (x 2).val; omega

/-- So are all the stores of the trips before the n-th, for both blocks: by induction on n. -/
theorem loop_pieces (x0 : Vec F S8x32x128 .f32) (x1 : Vec F S16x180x128 .f32) : ∀ n : ℕ,
    (∀ p ∈ (pb_k0_t1 (F := F) 𝒱 c bd i arg2 harg2 arg3 harg3 arg4 harg4 arg5 harg5 x0 (harg3.unread x1) n).1,
        ∀ x : p.1.shape.Idx, p.2 x = blk2 x0 x1 (p.1.emb x))
    ∧ (∀ p ∈ (pb_k0_t1 (F := F) 𝒱 c bd i arg2 harg2 arg3 harg3 arg4 harg4 arg5 harg5 x0 (harg3.unread x1) n).2,
        ∀ x : p.1.shape.Idx, p.2 x = blk3 x0 x1 (p.1.emb x))
  | 0 => by
    rw [pb_k0_t1.eq_1]
    exact ⟨fun p hp => absurd hp List.not_mem_nil, fun p hp => absurd hp List.not_mem_nil⟩
  | n + 1 => by
    have ih := loop_pieces x0 x1 n
    rw [pb_k0_t1.eq_2]
    unfold pb_k0_t1Step
    by_cases h : n < k0_t1_loop.trips
    · rw [dif_pos h]
      refine ⟨fun p hp => ?_, fun p hp => ?_⟩
      · rcases List.mem_append.mp hp with hp | hp
        · exact trip_pieces2 𝒱 c bd i arg2 harg2 arg3 harg3 arg4 harg4 arg5 harg5 x0 x1 ⟨n, h⟩ p hp
        · exact ih.1 p hp
      · rcases List.mem_append.mp hp with hp | hp
        · exact trip_pieces3 𝒱 c bd i arg2 harg2 arg3 harg3 arg4 harg4 arg5 harg5 x0 x1 ⟨n, h⟩ p hp
        · exact ih.2 p hp
    · rw [dif_neg h]
      exact ih

/-- THE INTERACTION BLOCK the body leaves is `blk2` of the two input blocks. -/
theorem out2_eq (x0 : Vec F S8x32x128 .f32) (x1 : Vec F S16x180x128 .f32) :
    out0_A_2 c i arg2 harg2 arg3 harg3 arg4 harg4 arg5 harg5 x0 x1 = blk2 x0 x1 := by
  funext y
  unfold out0_A_2
  refine View.read_writes_apply_of_pieces _ _ (blk2 x0 x1) _ ?_ y (cover0_A_2 c i arg2 harg2 arg3 harg3 arg4 harg4 arg5 harg5 x0 x1 y)
  unfold kernelRun0_A
  dsimp only
  have e : View.readAt (Elt F) arg2.view (Rect.unit ![0, 0, 0] S8x32x128.size inb_S8x32x128_S8x32x128_0_0_0).toLoadRect (harg2.unread x0) = x0 := by
    rw [View.readAt_eq_ld, harg2.read_unread]
    exact View.ld_unit_zero (S := S8x32x128) zero3 _ x0
  rw [e]
  exact (loop_pieces Variants.none c none i arg2 harg2 arg3 harg3 arg4 harg4 arg5 harg5 x0 x1 _).1

/-- THE SCORE BLOCK the body leaves is `blk3` of the two input blocks. -/
theorem out3_eq (x0 : Vec F S8x32x128 .f32) (x1 : Vec F S16x180x128 .f32) :
    out0_A_3 c i arg2 harg2 arg3 harg3 arg4 harg4 arg5 harg5 x0 x1 = blk3 x0 x1 := by
  funext y
  unfold out0_A_3
  refine View.read_writes_apply_of_pieces _ _ (blk3 x0 x1) _ ?_ y (cover0_A_3 c i arg2 harg2 arg3 harg3 arg4 harg4 arg5 harg5 x0 x1 y)
  unfold kernelRun0_A
  dsimp only
  have e : View.readAt (Elt F) arg2.view (Rect.unit ![0, 0, 0] S8x32x128.size inb_S8x32x128_S8x32x128_0_0_0).toLoadRect (harg2.unread x0) = x0 := by
    rw [View.readAt_eq_ld, harg2.read_unread]
    exact View.ld_unit_zero (S := S8x32x128) zero3 _ x0
  rw [e]
  exact (loop_pieces Variants.none c none i arg2 harg2 arg3 harg3 arg4 harg4 arg5 harg5 x0 x1 _).2

end Cert.KernelValue

end
-- ==== Proof.Payload.lean ====
/-
  The kernel body's arithmetic, read at an index over the extended reals.
  The body flattens its 8 queries of 32 tokens to 256 rows, multiplies them against one passage's 180
  document tokens along the 128 embedding coordinates, and views the 256 x 180 product as [8, 32, 180]:
  at (a, q, d) that is row 32 a + q, column d of the product, the inner product of query token (a, q) with
  document token d. The stored interaction block is the same value under a unit passage axis, and the stored
  score is its maximum over d, taken from -∞.
-/
import proofs.«131539_j27092653703271_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelValue

open Cert.KernelIdeal Cert.KernelIdeal.Gen Idealize.ShloMosaic Idealize.ShloMosaic.ValueIdx

/-! ## The operand indices of the 256 x 128 by 180 x 128 product, coordinate by coordinate -/

theorem lhs0 (i : S256x180.Idx) (k : dot_S256x128_S180x128_S256x180_1_1_0_0_n_n.contr.Idx) :
    (dot_S256x128_S180x128_S256x180_1_1_0_0_n_n.lhsIdx i k 0).val = (i 0).val := by
  unfold DotDims.lhsIdx
  rw [dif_neg (show ¬(0 : Fin S256x128.rank) ∈ dot_S256x128_S180x128_S256x180_1_1_0_0_n_n.lhsBatch by decide),
    dif_pos (show (0 : Fin S256x128.rank) ∈ dot_S256x128_S180x128_S256x180_1_1_0_0_n_n.lhsNonContracting by decide)]
  rfl

theorem lhs1 (i : S256x180.Idx) (k : dot_S256x128_S180x128_S256x180_1_1_0_0_n_n.contr.Idx) :
    (dot_S256x128_S180x128_S256x180_1_1_0_0_n_n.lhsIdx i k 1).val = (k ⟨0, by decide⟩).val :=
  dot_S256x128_S180x128_S256x180_1_1_0_0_n_n.lhsIdx_val_of_single rfl i k

theorem rhs0 (i : S256x180.Idx) (k : dot_S256x128_S180x128_S256x180_1_1_0_0_n_n.contr.Idx) :
    (dot_S256x128_S180x128_S256x180_1_1_0_0_n_n.rhsIdx i k 0).val = (i 1).val := by
  unfold DotDims.rhsIdx
  rw [dif_neg (show ¬(0 : Fin S180x128.rank) ∈ dot_S256x128_S180x128_S256x180_1_1_0_0_n_n.rhsBatch by decide),
    dif_pos (show (0 : Fin S180x128.rank) ∈ dot_S256x128_S180x128_S256x180_1_1_0_0_n_n.rhsNonContracting by decide)]
  rfl

theorem rhs1 (i : S256x180.Idx) (k : dot_S256x128_S180x128_S256x180_1_1_0_0_n_n.contr.Idx) :
    (dot_S256x128_S180x128_S256x180_1_1_0_0_n_n.rhsIdx i k 1).val = (k ⟨0, by decide⟩).val :=
  dot_S256x128_S180x128_S256x180_1_1_0_0_n_n.rhsIdx_val_of_single rfl i k

/-! ## The product viewed as [8, 32, 180] -/

/-- At (a, q, d) the body's product is the inner product of query token (a, q) of the query block with document
    token d of the loaded passage, over the embedding axis. -/
theorem pay1_apply (x0 : Vec Ideal S8x32x128 .f32) (v5 : Vec Ideal S1x180x128 .f32) (a : Fin 8) (q : Fin 32) (d : Fin 180) :
    k0_pay1 (F := Ideal) x0 v5 (ix3 a q d) = ∑ v : Fin 128, x0 (ix3 a q v) * v5 (ix3 (0 : Fin 1) d v) := by
  have hq : q.val < 32 := q.isLt
  have ha : a.val < 8 := a.isLt
  have hm : 32 * a.val + q.val < 256 := by omega
  unfold k0_pay1
  refine (shapeCast_apply _ _ (ix3 a q d) (ix2 (⟨32 * a.val + q.val, hm⟩ : Fin 256) d) ?_).trans ?_
  · rw [Shape.rowMajor_val_two, Shape.rowMajor_val_three]
    show (32 * a.val + q.val) * 180 + d.val = (a.val * 32 + q.val) * 180 + d.val
    omega
  refine (Ideal.matmul_constant_zero_apply dot_S256x128_S180x128_S256x180_1_1_0_0_n_n none _ _ _).trans ?_
  rw [← Equiv.sum_comp (contrEquiv1 dot_S256x128_S180x128_S256x180_1_1_0_0_n_n 128 rfl rfl).symm]
  refine Finset.sum_congr rfl fun k _ => ?_
  have hk := contrEquiv1_symm_val dot_S256x128_S180x128_S256x180_1_1_0_0_n_n 128 rfl rfl k
  have hkl : k.val < 128 := k.isLt
  have hd : d.val < 180 := d.isLt
  refine congrArg₂ (· * ·) ?_ ?_
  · refine (shapeCast_apply _ _ _ (ix3 a q k) ?_).trans rfl
    rw [Shape.rowMajor_val_two, Shape.rowMajor_val_three, lhs0, lhs1, hk]
    show (a.val * 32 + q.val) * 128 + k.val = (32 * a.val + q.val) * 128 + k.val
    omega
  · refine (shapeCast_apply _ _ _ (ix3 (0 : Fin 1) d k) ?_)
    rw [Shape.rowMajor_val_two, Shape.rowMajor_val_three, rhs0, rhs1, hk]
    show (0 * 180 + d.val) * 128 + k.val = d.val * 128 + k.val
    omega

/-- The stored interaction block is the product under a unit passage axis. -/
theorem pay2_apply (x0 : Vec Ideal S8x32x128 .f32) (v5 : Vec Ideal S1x180x128 .f32) (a : Fin 8) (q : Fin 32) (d : Fin 180) :
    k0_pay2 (F := Ideal) x0 v5 (ix4 a (0 : Fin 1) q d) = k0_pay1 (F := Ideal) x0 v5 (ix3 a q d) := by
  unfold k0_pay2
  refine shapeCast_apply _ _ _ (ix3 a q d) ?_
  rw [Shape.rowMajor_val_three, Shape.rowMajor_val_four]
  show (a.val * 32 + q.val) * 180 + d.val = ((a.val * 1 + 0) * 32 + q.val) * 180 + d.val
  omega

/-- The stored score is the maximum of the product over the document axis, from -∞. -/
theorem pay3_apply (x0 : Vec Ideal S8x32x128 .f32) (v5 : Vec Ideal S1x180x128 .f32) (a : Fin 8) (q : Fin 32) :
    k0_pay3 (F := Ideal) x0 v5 (ix3 a (0 : Fin 1) q)
      = (Finset.univ : Finset (Fin 180)).fold max (FloatOps.ofBits (F := Ideal) .f32 0xFF800000#32)
          (fun d => k0_pay1 (F := Ideal) x0 v5 (ix3 a q d)) := by
  unfold k0_pay3
  refine (shapeCast_apply _ _ _ (ix2 a q) ?_).trans ?_
  · rw [Shape.rowMajor_val_two, Shape.rowMajor_val_three]
    show a.val * 32 + q.val = (a.val * 1 + 0) * 32 + q.val
    omega
  refine (Ideal.multiReduction_maximumf_single _ _ reduces_S8x32x180_S8x32 _ _ (ix2 a q)).trans ?_
  refine Finset.fold_congr fun d _ => ?_
  exact congrArg (k0_pay1 (F := Ideal) x0 v5)
    (funext fun b => Fin.ext (by match b with | ⟨0, _⟩ => rfl | ⟨1, _⟩ => rfl | ⟨2, _⟩ => rfl))

end Cert.KernelValue

end
-- ==== Proof.BlockSpec.lean ====
/-
  The body's blocks are blocks of the specification.
  If the query block holds queries 8 bi .. 8 bi + 7 of the query array and the passage block passages
  16 bj .. 16 bj + 15 of the passage array, then at block index (a, b, q, d) the body's product is the
  interaction of query 8 bi + a with passage 16 bj + b at (q, d) — term by term the same sum over the
  embedding axis — and the body's maximum over d is the score of that query token against that passage.
-/
import proofs.«131539_j27092653703271_2_alg».proof.Proof.Pieces
import proofs.«131539_j27092653703271_2_alg».proof.Proof.Payload
import proofs.«131539_j27092653703271_2_alg».proof.Proof.Spec

noncomputable section

namespace Cert.KernelValue

open Cert.KernelIdeal Cert.KernelIdeal.Gen Idealize.ShloMosaic Idealize.ShloMosaic.ValueIdx Cert.Spec

/-- The product of the query block with passage b of the passage block, at (a, q, d), is the interaction at any array
    index Z whose coordinates are (8 bi + a, 16 bj + b, q, d). -/
theorem pay1_eq_tr (Q : SQ.Idx → EReal) (P : SP.Idx → EReal) (x0 : Vec Ideal S8x32x128 .f32) (x1 : Vec Ideal S16x180x128 .f32)
    (bi bj : ℕ)
    (h0 : ∀ (a : Fin 8) (q : Fin 32) (v : Fin 128) (Z : SQ.Idx), (Z 0).val = bi * 8 + a.val → (Z 1).val = q.val →
      (Z 2).val = v.val → x0 (ix3 a q v) = Q Z)
    (h1 : ∀ (b : Fin 16) (d : Fin 180) (v : Fin 128) (Z : SP.Idx), (Z 0).val = bj * 16 + b.val → (Z 1).val = d.val →
      (Z 2).val = v.val → x1 (ix3 b d v) = P Z)
    (a : Fin 8) (b : Fin 16) (q : Fin 32) (d : Fin 180) (Z : STR.Idx)
    (hZ0 : (Z 0).val = bi * 8 + a.val) (hZ1 : (Z 1).val = bj * 16 + b.val) (hZ2 : (Z 2).val = q.val) (hZ3 : (Z 3).val = d.val) :
    k0_pay1 (F := Ideal) x0 (row x1 b) (ix3 a q d) = tr Q P Z := by
  rw [pay1_apply]
  unfold tr
  refine Finset.sum_congr rfl fun v _ => ?_
  refine congrArg₂ (· * ·) ?_ ?_
  · exact h0 a q v (ix3 (Z 0) (Z 2) v) hZ0 hZ2 rfl
  · show x1 (ix3 b d v) = P (ix3 (Z 1) (Z 3) v)
    exact h1 b d v (ix3 (Z 1) (Z 3) v) hZ1 hZ3 rfl

/-- The interaction block is a block of the interaction tensor. -/
theorem blk2_eq_tr (Q : SQ.Idx → EReal) (P : SP.Idx → EReal) (x0 : Vec Ideal S8x32x128 .f32) (x1 : Vec Ideal S16x180x128 .f32)
    (bi bj : ℕ)
    (h0 : ∀ (a : Fin 8) (q : Fin 32) (v : Fin 128) (Z : SQ.Idx), (Z 0).val = bi * 8 + a.val → (Z 1).val = q.val →
      (Z 2).val = v.val → x0 (ix3 a q v) = Q Z)
    (h1 : ∀ (b : Fin 16) (d : Fin 180) (v : Fin 128) (Z : SP.Idx), (Z 0).val = bj * 16 + b.val → (Z 1).val = d.val →
      (Z 2).val = v.val → x1 (ix3 b d v) = P Z)
    (y : S8x16x32x180.Idx) (Y : STR.Idx)
    (hY0 : (Y 0).val = bi * 8 + (y 0).val) (hY1 : (Y 1).val = bj * 16 + (y 1).val) (hY2 : (Y 2).val = (y 2).val)
    (hY3 : (Y 3).val = (y 3).val) :
    blk2 (F := Ideal) x0 x1 y = tr Q P Y := by
  unfold blk2
  refine (pay2_apply x0 (row x1 (y 1)) (y 0) (y 2) (y 3)).trans ?_
  exact pay1_eq_tr Q P x0 x1 bi bj h0 h1 (y 0) (y 1) (y 2) (y 3) Y hY0 hY1 hY2 hY3

/-- The score block is a block of the score tensor. -/
theorem blk3_eq_qm (Q : SQ.Idx → EReal) (P : SP.Idx → EReal) (x0 : Vec Ideal S8x32x128 .f32) (x1 : Vec Ideal S16x180x128 .f32)
    (bi bj : ℕ)
    (h0 : ∀ (a : Fin 8) (q : Fin 32) (v : Fin 128) (Z : SQ.Idx), (Z 0).val = bi * 8 + a.val → (Z 1).val = q.val →
      (Z 2).val = v.val → x0 (ix3 a q v) = Q Z)
    (h1 : ∀ (b : Fin 16) (d : Fin 180) (v : Fin 128) (Z : SP.Idx), (Z 0).val = bj * 16 + b.val → (Z 1).val = d.val →
      (Z 2).val = v.val → x1 (ix3 b d v) = P Z)
    (y : S8x16x32.Idx) (Y : SQM.Idx)
    (hY0 : (Y 0).val = bi * 8 + (y 0).val) (hY1 : (Y 1).val = bj * 16 + (y 1).val) (hY2 : (Y 2).val = (y 2).val) :
    blk3 (F := Ideal) x0 x1 y = qm Q P Y := by
  unfold blk3 qm
  refine (pay3_apply x0 (row x1 (y 1)) (y 0) (y 2)).trans ?_
  refine Finset.fold_congr fun d _ => ?_
  exact pay1_eq_tr Q P x0 x1 bi bj h0 h1 (y 0) (y 1) (y 2) d (ix4 (Y 0) (Y 1) (Y 2) d) hY0 hY1 hY2 rfl

end Cert.KernelValue

end
-- ==== Proof.Blocks.lean ====
/-
  From blocks to arrays. Grid point t = (i, j) stages queries 8 i .. 8 i + 7 and passages 16 j .. 16 j + 15 and writes
  back block (i, j) of the interaction tensor and of the score tensor. What it writes back is that block of ONE
  whole-array function — the interaction tensor, resp. the score tensor, of the argument arrays — and the 8 x 8
  blocks tile both arrays, so after the last point the arrays hold those functions.
-/
import proofs.«131539_j27092653703271_2_alg».proof.Proof.BlockSpec
import Idealize.ShloMosaic.Lib.Pipeline.Value

set_option maxRecDepth 16384

noncomputable section

namespace Cert.KernelValue

open Cert.KernelIdeal Cert.KernelIdeal.Gen Idealize.ShloMosaic Idealize.ShloMosaic.TcCoe Idealize.ShloMosaic.ValueIdx
open Idealize.SL.Sem Cert.Spec
open Idealize.ShloMosaic.Pipeline (Dat)

variable (m : (ℓ : Loc nD τ sig) → Buf (Elt Ideal) ℓ)

/-- The printed index maps over the grid: the query window follows the outputs' first block coordinate, the passage
    window their second, and every other block coordinate is zero. -/
theorem idx_facts : ∀ t : Fin cfg0.N,
      win0_0.index t (0 : Fin 3) = win0_2.index t (0 : Fin 4) ∧ win0_0.index t (1 : Fin 3) = 0 ∧ win0_0.index t (2 : Fin 3) = 0
    ∧ win0_1.index t (0 : Fin 3) = win0_2.index t (1 : Fin 4) ∧ win0_1.index t (1 : Fin 3) = 0 ∧ win0_1.index t (2 : Fin 3) = 0
    ∧ win0_2.index t (2 : Fin 4) = 0 ∧ win0_2.index t (3 : Fin 4) = 0
    ∧ win0_3.index t (0 : Fin 3) = win0_2.index t (0 : Fin 4) ∧ win0_3.index t (1 : Fin 3) = win0_2.index t (1 : Fin 4)
    ∧ win0_3.index t (2 : Fin 3) = 0 :=
  (by decide +kernel : ∀ t : Fin grid0.N, _)

/-- Every one of the 8 x 8 blocks of the interaction tensor is some point's; -/
theorem idx_onto2 : ∀ (q0 : Fin 8) (q1 : Fin 8), ∃ t : Fin cfg0.N, win0_2.index t = ![q0.val, q1.val, 0, 0] :=
  (by decide +kernel : ∀ (q0 : Fin 8) (q1 : Fin 8), ∃ t : Fin grid0.N, win0_2.index t = ![q0.val, q1.val, 0, 0])

/-- and every block of the score tensor. -/
theorem idx_onto3 : ∀ (q0 : Fin 8) (q1 : Fin 8), ∃ t : Fin cfg0.N, win0_3.index t = ![q0.val, q1.val, 0] :=
  (by decide +kernel : ∀ (q0 : Fin 8) (q1 : Fin 8), ∃ t : Fin grid0.N, win0_3.index t = ![q0.val, q1.val, 0])

/-- The query block at point t, at (a, q, v), is the query array at (8 i + a, q, v). -/
theorem iblk0_apply (c : Dev nD) (t : Fin cfg0.N) (a : Fin 8) (q : Fin 32) (v : Fin 128) (Z : SQ.Idx)
    (h0 : (Z 0).val = win0_2.index t (0 : Fin 4) * 8 + a.val) (h1 : (Z 1).val = q.val) (h2 : (Z 2).val = v.val) :
    (iblk m c 0 t : Vec Ideal S8x32x128 .f32) (ix3 a q v) = (V m c main_arg0 : SQ.Idx → EReal) Z := by
  obtain ⟨e0, e1, e2, -⟩ := idx_facts t
  show V m c main_arg0 (((cfg0.win 0).blk t).view.emb (ix3 a q v)) = V m c main_arg0 Z
  refine congrArg (V m c main_arg0) (funext fun ax => Fin.ext ?_)
  match ax with
  | ⟨0, _⟩ => show win0_0.index t (0 : Fin 3) * 8 + 1 * a.val = (Z 0).val; omega
  | ⟨1, _⟩ => show win0_0.index t (1 : Fin 3) * 32 + 1 * q.val = (Z 1).val; omega
  | ⟨2, _⟩ => show win0_0.index t (2 : Fin 3) * 128 + 1 * v.val = (Z 2).val; omega

/-- The passage block at point t, at (b, d, v), is the passage array at (16 j + b, d, v). -/
theorem iblk1_apply (c : Dev nD) (t : Fin cfg0.N) (b : Fin 16) (d : Fin 180) (v : Fin 128) (Z : SP.Idx)
    (h0 : (Z 0).val = win0_2.index t (1 : Fin 4) * 16 + b.val) (h1 : (Z 1).val = d.val) (h2 : (Z 2).val = v.val) :
    (iblk m c 1 t : Vec Ideal S16x180x128 .f32) (ix3 b d v) = (V m c main_arg1 : SP.Idx → EReal) Z := by
  obtain ⟨-, -, -, e0, e1, e2, -⟩ := idx_facts t
  show V m c main_arg1 (((cfg0.win 1).blk t).view.emb (ix3 b d v)) = V m c main_arg1 Z
  refine congrArg (V m c main_arg1) (funext fun ax => Fin.ext ?_)
  match ax with
  | ⟨0, _⟩ => show win0_1.index t (0 : Fin 3) * 16 + 1 * b.val = (Z 0).val; omega
  | ⟨1, _⟩ => show win0_1.index t (1 : Fin 3) * 180 + 1 * d.val = (Z 1).val; omega
  | ⟨2, _⟩ => show win0_1.index t (2 : Fin 3) * 128 + 1 * v.val = (Z 2).val; omega

/-! ## The interaction tensor -/

/-- WHAT POINT t WRITES BACK to the interaction tensor is block t of the interaction tensor of the argument arrays. -/
theorem flushed2_eq (c : Dev nD) (t : Fin cfg0.N) :
    (dats m 0 c).flushed 2 t = ((cfg0.win 2).blk t).view.read (Elt Ideal) (tr (V m c main_arg0) (V m c main_arg1)) := by
  show (cfg0.win 2).cut (grid0.coords t) ((dats m 0 c).after 2 t) = _
  rw [after0_2]
  unfold outsAt0
  dsimp only
  rw [out2_eq]
  obtain ⟨-, -, -, -, -, -, e2, e3, -⟩ := idx_facts t
  funext y
  show blk2 (F := Ideal) (iblk m c 0 t) (iblk m c 1 t) ((cfg0.win 2).xinj (grid0.coords t) y)
    = tr (V m c main_arg0) (V m c main_arg1) (((cfg0.win 2).blk t).view.emb y)
  refine blk2_eq_tr _ _ _ _ (win0_2.index t (0 : Fin 4)) (win0_2.index t (1 : Fin 4)) (iblk0_apply m c t) (iblk1_apply m c t)
    _ _ ?_ ?_ ?_ ?_
  · show win0_2.index t (0 : Fin 4) * 8 + 1 * (y 0).val = win0_2.index t (0 : Fin 4) * 8 + (y 0).val; omega
  · show win0_2.index t (1 : Fin 4) * 16 + 1 * (y 1).val = win0_2.index t (1 : Fin 4) * 16 + (y 1).val; omega
  · show win0_2.index t (2 : Fin 4) * 32 + 1 * (y 2).val = (y 2).val; omega
  · show win0_2.index t (3 : Fin 4) * 180 + 1 * (y 3).val = (y 3).val; omega

/-- An index of the interaction tensor is in point t's block iff each coordinate is in the block's range on its axis. -/
theorem mem_blk2 (t : Fin cfg0.N) (i : S64x128x32x180.Idx) :
    i ∈ ((cfg0.win 2).blk t).view.set ↔ ∀ a : Fin 4, win0_2.index t a * S8x16x32x180.size a ≤ (i a).val
      ∧ (i a).val < win0_2.index t a * S8x16x32x180.size a + S8x16x32x180.size a := by
  show i ∈ ((View.whole main_v0_0).slice (win0_2.rect t)).set ↔ _
  rw [View.set_slice_whole, Rect.mem_set_unit]
  exact Iff.rfl

/-- The blocks tile the interaction tensor: index (A, B, q, d) is in the block of the point with block coordinates
    (A / 8, B / 16). -/
theorem cover2 (i : S64x128x32x180.Idx) :
    ∃ t : Fin cfg0.N, (cfg0.win 2).flush t = true ∧ i ∈ ((cfg0.win 2).blk t).view.set := by
  have hi0 : (i 0).val < 64 := (i 0).isLt
  have hi1 : (i 1).val < 128 := (i 1).isLt
  have hi2 : (i 2).val < 32 := (i 2).isLt
  have hi3 : (i 3).val < 180 := (i 3).isLt
  obtain ⟨t, ht⟩ := idx_onto2 ⟨(i 0).val / 8, by omega⟩ ⟨(i 1).val / 16, by omega⟩
  have q0 : win0_2.index t (0 : Fin 4) = (i 0).val / 8 := congrFun ht 0
  have q1 : win0_2.index t (1 : Fin 4) = (i 1).val / 16 := congrFun ht 1
  have q2 : win0_2.index t (2 : Fin 4) = 0 := congrFun ht 2
  have q3 : win0_2.index t (3 : Fin 4) = 0 := congrFun ht 3
  refine ⟨t, flush0_2 t, ?_⟩
  rw [mem_blk2]
  intro a
  match a with
  | ⟨0, _⟩ => show win0_2.index t (0 : Fin 4) * 8 ≤ (i 0).val ∧ (i 0).val < win0_2.index t (0 : Fin 4) * 8 + 8; omega
  | ⟨1, _⟩ => show win0_2.index t (1 : Fin 4) * 16 ≤ (i 1).val ∧ (i 1).val < win0_2.index t (1 : Fin 4) * 16 + 16; omega
  | ⟨2, _⟩ => show win0_2.index t (2 : Fin 4) * 32 ≤ (i 2).val ∧ (i 2).val < win0_2.index t (2 : Fin 4) * 32 + 32; omega
  | ⟨3, _⟩ => show win0_2.index t (3 : Fin 4) * 180 ≤ (i 3).val ∧ (i 3).val < win0_2.index t (3 : Fin 4) * 180 + 180; omega

/-- THE INTERACTION ARRAY after the run is the interaction tensor of the argument arrays. -/
theorem final2 (c : Dev nD) : (dats m 0 c).arrAt 2 cfg0.N = tr (V m c main_arg0) (V m c main_arg1) :=
  (dats m 0 c).arrAt_eq_of_cover 2 _ (fun t _ => flushed2_eq m c t) cover2

/-! ## The score tensor -/

/-- WHAT POINT t WRITES BACK to the score tensor is block t of the score tensor of the argument arrays. -/
theorem flushed3_eq (c : Dev nD) (t : Fin cfg0.N) :
    (dats m 0 c).flushed 3 t = ((cfg0.win 3).blk t).view.read (Elt Ideal) (qm (V m c main_arg0) (V m c main_arg1)) := by
  show (cfg0.win 3).cut (grid0.coords t) ((dats m 0 c).after 3 t) = _
  rw [after0_3]
  unfold outsAt0
  dsimp only
  rw [out3_eq]
  obtain ⟨-, -, -, -, -, -, -, -, e0, e1, e2⟩ := idx_facts t
  funext y
  show blk3 (F := Ideal) (iblk m c 0 t) (iblk m c 1 t) ((cfg0.win 3).xinj (grid0.coords t) y)
    = qm (V m c main_arg0) (V m c main_arg1) (((cfg0.win 3).blk t).view.emb y)
  refine blk3_eq_qm _ _ _ _ (win0_2.index t (0 : Fin 4)) (win0_2.index t (1 : Fin 4)) (iblk0_apply m c t) (iblk1_apply m c t)
    _ _ ?_ ?_ ?_
  · show win0_3.index t (0 : Fin 3) * 8 + 1 * (y 0).val = win0_2.index t (0 : Fin 4) * 8 + (y 0).val; omega
  · show win0_3.index t (1 : Fin 3) * 16 + 1 * (y 1).val = win0_2.index t (1 : Fin 4) * 16 + (y 1).val; omega
  · show win0_3.index t (2 : Fin 3) * 32 + 1 * (y 2).val = (y 2).val; omega

/-- An index of the score tensor is in point t's block iff each coordinate is in the block's range on its axis. -/
theorem mem_blk3 (t : Fin cfg0.N) (i : S64x128x32.Idx) :
    i ∈ ((cfg0.win 3).blk t).view.set ↔ ∀ a : Fin 3, win0_3.index t a * S8x16x32.size a ≤ (i a).val
      ∧ (i a).val < win0_3.index t a * S8x16x32.size a + S8x16x32.size a := by
  show i ∈ ((View.whole main_v0_1).slice (win0_3.rect t)).set ↔ _
  rw [View.set_slice_whole, Rect.mem_set_unit]
  exact Iff.rfl

/-- The blocks tile the score tensor. -/
theorem cover3 (i : S64x128x32.Idx) :
    ∃ t : Fin cfg0.N, (cfg0.win 3).flush t = true ∧ i ∈ ((cfg0.win 3).blk t).view.set := by
  have hi0 : (i 0).val < 64 := (i 0).isLt
  have hi1 : (i 1).val < 128 := (i 1).isLt
  have hi2 : (i 2).val < 32 := (i 2).isLt
  obtain ⟨t, ht⟩ := idx_onto3 ⟨(i 0).val / 8, by omega⟩ ⟨(i 1).val / 16, by omega⟩
  have q0 : win0_3.index t (0 : Fin 3) = (i 0).val / 8 := congrFun ht 0
  have q1 : win0_3.index t (1 : Fin 3) = (i 1).val / 16 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 8 ≤ (i 0).val ∧ (i 0).val < win0_3.index t (0 : Fin 3) * 8 + 8; omega
  | ⟨1, _⟩ => show win0_3.index t (1 : Fin 3) * 16 ≤ (i 1).val ∧ (i 1).val < win0_3.index t (1 : Fin 3) * 16 + 16; omega
  | ⟨2, _⟩ => show win0_3.index t (2 : Fin 3) * 32 ≤ (i 2).val ∧ (i 2).val < win0_3.index t (2 : Fin 3) * 32 + 32; omega

/-- THE SCORE ARRAY after the run is the score tensor of the argument arrays. -/
theorem final3 (c : Dev nD) : (dats m 0 c).arrAt 3 cfg0.N = qm (V m c main_arg0) (V m c main_arg1) :=
  (dats m 0 c).arrAt_eq_of_cover 3 _ (fun t _ => flushed3_eq m c t) cover3

end Cert.KernelValue

end
-- ==== Proof.KernelRun.lean ====
/-
  The kernel's run, read. After the grid the interaction and score arrays hold the interaction and score tensors of the
  argument arrays; the one host operation after the region sums the score array over the query tokens, from zero;
  the argument arrays are staged and never written back.
-/
import proofs.«131539_j27092653703271_2_alg».proof.Proof.Blocks
import Idealize.ShloMosaic.Lib.StableHlo.Run

set_option maxRecDepth 16384

noncomputable section

namespace Cert.KernelValue

open Cert.KernelIdeal Cert.KernelIdeal.Gen Idealize.ShloMosaic Idealize.ShloMosaic.TcCoe Idealize.ShloMosaic.ValueIdx
open Idealize.SL.Sem Cert.Spec Idealize.ShloMosaic.StableHlo
open Idealize.ShloMosaic.Pipeline (Dat)

variable (m : (ℓ : Loc nD τ sig) → Buf (Elt Ideal) ℓ) (ρ : Dev nD → PrngReg)

/-- The relevance buffer after the host operation that follows the region: the host's sum over the query tokens, from
    zero, of the score tensor of the argument arrays. -/
theorem tail_eq (c : Dev nD) :
    Pipeline.afterTail₀ cfgs (dats m) 0 (V0 m) [hostOps1] c main_v1
      = Host.reduceAdd (F := Ideal) (qm (m ((c.tc : Thread nD τ).loc main_arg0)) (m ((c.tc : Thread nD τ).loc main_arg1)))
          (constant S_ .f32 0x00000000#32) reducesTo_S64x128x32_S64x128_d2 h_S_ := by
  have e : Pipeline.withArrays spec0 c (V0 m c) (fun w => (dats m 0 c).arrAt w cfg0.N) (Proc.devRef .tc (Pipeline.arrRef spec0 3))
      = qm (V m c main_arg0) (V m c main_arg1) :=
    (Pipeline.withArrays_arr spec0 launch0.win.arr_inj c _ _ 3).trans (final3 m c)
  unfold Pipeline.afterTail₀
  show StableHlo.after hostOps1 _ (Proc.devRef .tc main_v1) = _
  after_results
  exact congrArg (fun z => Host.reduceAdd (F := Ideal) z (constant S_ .f32 0x00000000#32) reducesTo_S64x128x32_S64x128_d2 h_S_) e

/-- THE KERNEL'S RUN: every weakly fair execution terminates with the three results at the interaction tensor, the score
    tensor and the host's sum of the score tensor, of the argument arrays, which end unchanged. -/
theorem run : θ_run defs (onTc (τ := τ) (main (F := Ideal))) ⟨m, fun _ => 0, ρ⟩ fun r => ∀ c : Dev nD,
      r.2.mem ((c.tc : Thread nD τ).loc main_v0_0)
        = tr (m ((c.tc : Thread nD τ).loc main_arg0)) (m ((c.tc : Thread nD τ).loc main_arg1))
      ∧ r.2.mem ((c.tc : Thread nD τ).loc main_v0_1)
        = qm (m ((c.tc : Thread nD τ).loc main_arg0)) (m ((c.tc : Thread nD τ).loc main_arg1))
      ∧ r.2.mem ((c.tc : Thread nD τ).loc main_v1)
        = Host.reduceAdd (F := Ideal) (qm (m ((c.tc : Thread nD τ).loc main_arg0)) (m ((c.tc : Thread nD τ).loc main_arg1)))
            (constant S_ .f32 0x00000000#32) reducesTo_S64x128x32_S64x128_d2 h_S_
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 2).trans (final2 m c), ((h c).1 3).trans (final3 m c),
      ((h c).2 main_v1 (Pipeline.mem_restRefs_of main_v1 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelValue

end
-- ==== Proof.lean ====
/- The proof of `Cert.Claim` (proofs.«131539_j27092653703271_2_alg».proof.Defs).
   Both programs compute, from queries x : [64, 32, 128] and passages y : [128, 180, 128], the interaction tensor
   tr a b q d = Σ_v x a q v * y b d v, the score qm a b q = max_d tr a b q d (from -∞), and the relevance
   rel a b = 0 + Σ_q qm a b q. The kernel tiles (a, b) into 8 x 8 blocks of 8 queries by 16 passages, computes each
   block's interactions as a 256-row matrix product per passage and its maxima over the document axis, and leaves the
   last sum to a host operation; the reference contracts in the other order of the factors and transposes. Over the
   extended reals the two agree index by index: a product commutes, a change of float format is the identity, the
   maximum of 180 numbers from -∞ does not depend on how it is folded, and the last host operation is the same one.
   Proof/Spec.lean states tr and qm; Proof/RefValue.lean reads the reference's results as them; Proof/Payload.lean
   reads the kernel body's arithmetic at an index, Proof/Pieces.lean what the body's loop leaves in its two output
   blocks, Proof/BlockSpec.lean that those are blocks of tr and qm, Proof/Blocks.lean that the blocks tile the arrays,
   Proof/KernelRun.lean the kernel's run with its three results named. Finiteness of the inputs is never used: no
   step distributes, cancels or moves a factor across a sum. -/
import proofs.«131539_j27092653703271_2_alg».proof.Defs
import proofs.«131539_j27092653703271_2_alg».proof.Proof.Gen.Kernel
import proofs.«131539_j27092653703271_2_alg».proof.Proof.Gen.Kernel.Frame
import proofs.«131539_j27092653703271_2_alg».proof.Proof.Gen.KernelIdeal
import proofs.«131539_j27092653703271_2_alg».proof.Proof.Gen.KernelIdeal.Frame
import proofs.«131539_j27092653703271_2_alg».proof.Proof.Gen.ReferenceIdeal
import proofs.«131539_j27092653703271_2_alg».proof.Proof.Gen.ReferenceIdeal.Run
import proofs.«131539_j27092653703271_2_alg».proof.Proof.Gen.ReferenceIdeal.Read
import proofs.«131539_j27092653703271_2_alg».proof.Proof.Gen.Pre_finite_inputs
import proofs.«131539_j27092653703271_2_alg».proof.Proof.RefValue
import proofs.«131539_j27092653703271_2_alg».proof.Proof.KernelRun
import Idealize.ShloMosaic.Adequacy
import Idealize.ShloMosaic.Init

noncomputable section

namespace Cert.Proof

open Idealize.ShloMosaic Idealize.SL.Sem Cert.Spec

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its arguments: its generated run, the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The ideal pass rewrote nothing. -/
theorem preserves : Cert.preserves_Kernel_KernelIdeal := trivial

/-- From memories agreeing on the arguments both programs end with the interaction tensor, the score tensor and the
    host's sum of the score tensor over the query tokens, of the same argument arrays. -/
theorem algebraic : Cert.algebraic_KernelIdeal_ReferenceIdeal := by
  intro m ρ m' ρ' _ hagree
  refine ⟨_, _, _, Cert.KernelValue.run m ρ, ?_⟩
  refine (θ_run Cert.ReferenceIdeal.defs _ _).mono (fun _ h c => ?_) (Cert.ReferenceIdeal.Value.run (F := Ideal) m' ρ')
  obtain ⟨h1, h2, h3, h4, h5⟩ := h c
  have e0 := (hagree c).1
  have e1 := (hagree c).2
  refine ⟨h1.trans ?_, h2.trans ?_, h3.trans ?_, h4, h5⟩
  · rw [Cert.ReferenceIdeal.Read.val_main_v1_eq, Cert.RefValue.v1_eq, e0, e1]
  · rw [Cert.ReferenceIdeal.Read.val_main_v2_eq, Cert.RefValue.v2_eq, e0, e1]
  · rw [Cert.ReferenceIdeal.Read.val_main_v3_eq, Cert.RefValue.v3_eq, e0, e1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
